-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_1) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x512 : Shape := ⟨3, ![256, 64, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S256x64x512 : S_.BroadcastsInDim S256x64x512 (![] : Fin 0 → Fin S256x64x512.rank)
  reducesTo_S256x64x512_S_d0_1_2 : S256x64x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S256x64x512 .f32) (main_arg1 : FVec F S512x512 .f32) (main_arg2 : FVec F S512 .f32) (main_arg3 : FVec F S512x128 .f32) (main_arg4 : FVec F S128 .f32) : IVec S_ 1 :=
  let main_v0 : FVec F S256x64x512 .f32 := Host.absf main_arg0
  let main_cst : FVec F S_ .f32 := constant S_ .f32 0x7F800000#32
  let main_v1 : FVec F S256x64x512 .f32 := broadcastInDim S256x64x512 ![] bcast_S_S256x64x512 main_cst
  let main_v2 : IVec S256x64x512 1 := cmpf .olt main_v0 main_v1
  let main_c : IVec S_ 1 := constantI S_ 1 1#1
  let main_v3 : IVec S_ 1 := (fun x v => Host.reduce IntOp.andi x v reducesTo_S256x64x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S256x64x512 : Shape := ⟨3, ![256, 64, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S16384x512 : Shape := ⟨2, ![16384, 512]⟩
abbrev S1x512 : Shape := ⟨2, ![1, 512]⟩
abbrev S1x128 : Shape := ⟨2, ![1, 128]⟩
abbrev S16384x128 : Shape := ⟨2, ![16384, 128]⟩
abbrev S256x128 : Shape := ⟨2, ![256, 128]⟩
abbrev S4096x512 : Shape := ⟨2, ![4096, 512]⟩
abbrev S4096x128 : Shape := ⟨2, ![4096, 128]⟩
abbrev S64x128 : Shape := ⟨2, ![64, 128]⟩
abbrev S64x64x128 : Shape := ⟨3, ![64, 64, 128]⟩
abbrev S256x64x128 : Shape := ⟨3, ![256, 64, 128]⟩

abbrev nBuf : Space → Nat
  | .hbm => 11
  | .vmem => 10
  | .smem => 0
  | _ => 0

abbrev bufTy : (tb : Table) → Fin (tcTables nBuf tb) → BufTy
  | .hbm, ⟨0, _⟩ => ⟨S256x64x512, .f32⟩
  | .hbm, ⟨1, _⟩ => ⟨S512x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S16384x512, .f32⟩
  | .hbm, ⟨6, _⟩ => ⟨S1x512, .f32⟩
  | .hbm, ⟨7, _⟩ => ⟨S1x128, .f32⟩
  | .hbm, ⟨8, _⟩ => ⟨S16384x128, .f32⟩
  | .hbm, ⟨9, _⟩ => ⟨S256x128, .f32⟩
  | .hbm, ⟨10, _⟩ => ⟨S256x64x128, .f32⟩
  | .local _ .vmem, ⟨0, _⟩ => ⟨S4096x512, .f32⟩
  | .local _ .vmem, ⟨1, _⟩ => ⟨S4096x512, .f32⟩
  | .local _ .vmem, ⟨2, _⟩ => ⟨S512x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S64x128, .f32⟩
  | .local _ .vmem, ⟨9, _⟩ => ⟨S64x128, .f32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256x64x512_S16384x512 : S256x64x512.ShapeCasts S16384x512
  shapeCasts_S512_S1x512 : S512.ShapeCasts S1x512
  shapeCasts_S128_S1x128 : S128.ShapeCasts S1x128
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S4096x128_S64x64x128 : S4096x128.ShapeCasts S64x64x128
  reduces_S64x64x128_S64x128 : S64x64x128.Reduces [1] S64x128
  inb_S64x128_S64x128_0_0 : ∀ a, (![0, 0] : Fin 2 → Nat) a + S64x128.size a ≤ S64x128.size a
  h_S64x128 : 0 < S64x128.numel
  shapeCasts_S16384x128_S256x64x128 : S16384x128.ShapeCasts S256x64x128
  dot_S4096x512_S512x512_S4096x512_1_0_0_1_n_n_wf : DotDims.WF S4096x512 S512x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S16384x512.size a
  hwx0_0 : ∀ i : grid0.Coords, EltTy.bits .f32 = 32 ∨ (Rect.block (s := S16384x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S16384x128.size a
  hwx0_5 : ∀ i : grid0.Coords, EltTy.bits .f32 = 32 ∨ (Rect.block (s := S16384x128) S4096x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S256x128.size a
  hwx0_6 : ∀ i : grid0.Coords, EltTy.bits .f32 = 32 ∨ (Rect.block (s := S256x128) S64x128.size (cc0_transform_6 i) (hinb0_6 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S4096x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S64x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x64x512 : Shape := ⟨3, ![256, 64, 512]⟩
abbrev S512x512 : Shape := ⟨2, ![512, 512]⟩
abbrev S512 : Shape := ⟨1, ![512]⟩
abbrev S512x128 : Shape := ⟨2, ![512, 128]⟩
abbrev S128 : Shape := ⟨1, ![128]⟩
abbrev S16384x512 : Shape := ⟨2, ![16384, 512]⟩
abbrev S1x512 : Shape := ⟨2, ![1, 512]⟩
abbrev S1x128 : Shape := ⟨2, ![1, 128]⟩
abbrev S8 : Shape := ⟨1, ![8]⟩
abbrev S8x1 : Shape := ⟨2, ![8, 1]⟩
abbrev S_ : Shape := ⟨0, ![]⟩
abbrev S8x512 : Shape := ⟨2, ![8, 512]⟩
abbrev S16384x128 : Shape := ⟨2, ![16384, 128]⟩
abbrev S256x128 : Shape := ⟨2, ![256, 128]⟩
abbrev S8x128 : Shape := ⟨2, ![8, 128]⟩
abbrev S256x64x128 : Shape := ⟨3, ![256, 64, 128]⟩

abbrev nBuf : Space → Nat
  | .hbm => 41
  | .vmem => 11
  | .smem => 0
  | _ => 0

abbrev bufTy : (tb : Table) → Fin (tcTables nBuf tb) → BufTy
  | .hbm, ⟨0, _⟩ => ⟨S256x64x512, .f32⟩
  | .hbm, ⟨1, _⟩ => ⟨S512x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S16384x512, .f32⟩
  | .hbm, ⟨6, _⟩ => ⟨S1x512, .f32⟩
  | .hbm, ⟨7, _⟩ => ⟨S1x128, .f32⟩
  | .hbm, ⟨8, _⟩ => ⟨S8, .i32⟩
  | .hbm, ⟨9, _⟩ => ⟨S8x1, .i32⟩
  | .hbm, ⟨10, _⟩ => ⟨S512, .i32⟩
  | .hbm, ⟨11, _⟩ => ⟨S1x512, .i32⟩
  | .hbm, ⟨12, _⟩ => ⟨S_, .i32⟩
  | .hbm, ⟨13, _⟩ => ⟨S_, .i32⟩
  | .hbm, ⟨14, _⟩ => ⟨S1x512, .i32⟩
  | .hbm, ⟨15, _⟩ => ⟨S1x512, .i32⟩
  | .hbm, ⟨16, _⟩ => ⟨S1x512, .i32⟩
  | .hbm, ⟨17, _⟩ => ⟨S_, .i32⟩
  | .hbm, ⟨18, _⟩ => ⟨S1x512, .i32⟩
  | .hbm, ⟨19, _⟩ => ⟨S1x512, .i1⟩
  | .hbm, ⟨20, _⟩ => ⟨S1x512, .i32⟩
  | .hbm, ⟨21, _⟩ => ⟨S1x512, .i32⟩
  | .hbm, ⟨22, _⟩ => ⟨S_, .i32⟩
  | .hbm, ⟨23, _⟩ => ⟨S1x512, .i32⟩
  | .hbm, ⟨24, _⟩ => ⟨S1x512, .i1⟩
  | .hbm, ⟨25, _⟩ => ⟨S1x512, .i1⟩
  | .hbm, ⟨26, _⟩ => ⟨S_, .i32⟩
  | .hbm, ⟨27, _⟩ => ⟨S1x512, .i32⟩
  | .hbm, ⟨28, _⟩ => ⟨S1x512, .i32⟩
  | .hbm, ⟨29, _⟩ => ⟨S1x512, .i32⟩
  | .hbm, ⟨30, _⟩ => ⟨S8x512, .i32⟩
  | .hbm, ⟨31, _⟩ => ⟨S8x512, .i32⟩
  | .hbm, ⟨32, _⟩ => ⟨S8x512, .i1⟩
  | .hbm, ⟨33, _⟩ => ⟨S_, .f32⟩
  | .hbm, ⟨34, _⟩ => ⟨S_, .f32⟩
  | .hbm, ⟨35, _⟩ => ⟨S8x512, .f32⟩
  | .hbm, ⟨36, _⟩ => ⟨S8x512, .f32⟩
  | .hbm, ⟨37, _⟩ => ⟨S8x512, .f32⟩
  | .hbm, ⟨38, _⟩ => ⟨S16384x128, .f32⟩
  | .hbm, ⟨39, _⟩ => ⟨S256x128, .f32⟩
  | .hbm, ⟨40, _⟩ => ⟨S256x64x128, .f32⟩
  | .local _ .vmem, ⟨0, _⟩ => ⟨S8x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S8x128, .f32⟩
  | .local _ .vmem, ⟨10, _⟩ => ⟨S8x128, .f32⟩
  | _, _ => ⟨S256x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_v11 : Ref sig .tc := ⟨.hbm, 37, rfl⟩
abbrev main_v12_0 : Ref sig .tc := ⟨.hbm, 38, rfl⟩
abbrev main_v12_1 : Ref sig .tc := ⟨.hbm, 39, rfl⟩
abbrev main_v13 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256x64x512_S16384x512 : S256x64x512.ShapeCasts S16384x512
  shapeCasts_S512_S1x512 : S512.ShapeCasts S1x512
  shapeCasts_S128_S1x128 : S128.ShapeCasts S1x128
  bcast_S8_S8x1_0 : S8.BroadcastsInDim S8x1 (![0] : Fin 1 → Fin S8x1.rank)
  bcast_S512_S1x512_1 : S512.BroadcastsInDim S1x512 (![1] : Fin 1 → Fin S1x512.rank)
  bcast_S_S1x512 : S_.BroadcastsInDim S1x512 (![] : Fin 0 → Fin S1x512.rank)
  bcast_S8x1_S8x512_0_1 : S8x1.BroadcastsInDim S8x512 (![0, 1] : Fin 2 → Fin S8x512.rank)
  bcast_S1x512_S8x512_0_1 : S1x512.BroadcastsInDim S8x512 (![0, 1] : Fin 2 → Fin S8x512.rank)
  bcast_S_S8x512 : S_.BroadcastsInDim S8x512 (![] : Fin 0 → Fin S8x512.rank)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x128_S8x128_0_0 : ∀ a, (![0, 0] : Fin 2 → Nat) a + S8x128.size a ≤ S8x128.size a
  h_S8x128 : 0 < S8x128.numel
  shapeCasts_S16384x128_S256x64x128 : S16384x128.ShapeCasts S256x64x128
  dot_S512x512_S512x512_S512x512_1_0_0_1_n_n_wf : DotDims.WF S512x512 S512x512 S512x512 [1] [0] [0] [1] [] []
  dot_S512x512_S512x128_S512x128_1_0_0_1_n_n_wf : DotDims.WF S512x512 S512x128 S512x128 [1] [0] [0] [1] [] []
  dot_S8x512_S512x128_S8x128_1_0_0_1_n_n_wf : DotDims.WF S8x512 S512x128 S8x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S8x512.size a
  hwx0_0 : ∀ i : grid0.Coords, EltTy.bits .f32 = 32 ∨ (Rect.block (s := S8x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S16384x128.size a
  hwx0_6 : ∀ i : grid0.Coords, EltTy.bits .f32 = 32 ∨ (Rect.block (s := S16384x128) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S256x128.size a
  hwx0_7 : ∀ i : grid0.Coords, EltTy.bits .f32 = 32 ∨ (Rect.block (s := S256x128) S8x128.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S8x512_S512x128_S8x128_1_0_0_1_n_n : DotDims S8x512 S512x128 S8x128 where
  lhsContracting := [1]
  rhsContracting := [0]
  lhsNonContracting := [0]
  rhsNonContracting := [1]
  lhsBatch := []
  rhsBatch := []
  wf := dot_S8x512_S512x128_S8x128_1_0_0_1_n_n_wf

abbrev win0_0 : Pipeline.Window sig grid0 :=
  Pipeline.Window.ofSpec (Memref.whole main_v11) S8x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S512x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibRelayout.lean ====
/-
  Re-laid arrays read at an index given by coordinates, for any extents: the shape casts and broadcasts that a
  projection of a [1, a, 1, b] or [1, 1, a, b] block to a matrix, a sum of an [a, 1, c] and a [1, b, c] array
  over [a, b, c], and the flattening of [a, b, c] to [a * b, c] (and back) go through.

  • `shapeCast_1a1b_ab_apply`, `shapeCast_11ab_ab_apply`: a block with unit axes cast to the matrix of its two
    real axes reads, at (i, j), the operand at (0, i, 0, j), respectively (0, 0, i, j).
  • `shapeCast_ab_a1b_apply`: a matrix cast to [a, 1, b] reads, at (i, z, j), the operand at (i, j).
  • `broadcastTo_a1c_abc_apply`, `broadcastTo_1bc_abc_apply`: an array with a unit middle (leading) axis broadcast
    along it reads, at (i, k, j), the operand at (i, 0, j), respectively (0, k, j).
  • `shapeCast_abc_nc_apply`, `shapeCast_nc_abc_apply`: [a, b, c] flattened to [n, c] with n = a * b, and back:
    row r = i * b + k of the flat array is row (i, k) of the other.
  Each is the library's general lemma for the operation with the row-major, or per-axis, arithmetic done.
-/
import Idealize.ShloMosaic.Lib.ValueLayout

namespace Cert.LibRelayout

open Idealize.ShloMosaic Idealize.ShloMosaic.ValueIdx

variable {α : Type}

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- An `[a, b]` array cast to `[a, 1, b]` reads, at `(i, z, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_three, Shape.rowMajor_val_two]
    show i.val * b + j.val = (i.val * 1 + z.val) * b + j.val
    rw [hz, Nat.mul_one, Nat.add_zero])

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- An `[a, b, c]` array flattened to `[n, c]` (so `n = a * b`) reads, at row `r = i * b + k` and column `j`, the
    operand at `(i, k, j)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) : shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[n, c]` array cast to `[a, b, c]` (so `n = a * b`) reads, at `(i, k, j)`, the operand at row
    `r = i * b + k` and column `j`. -/
theorem shapeCast_nc_abc_apply {a b c n : ℕ} (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) : shapeCast ⟨3, ![a, b, c]⟩ x h (ix3 i k j) = x (ix2 r j) :=
  shapeCast_apply x h _ _ (by
    rw [Shape.rowMajor_val_two, Shape.rowMajor_val_three]
    show r.val * c + j.val = (i.val * b + k.val) * c + j.val
    rw [hr])

end Cert.LibRelayout
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.PoolSum.lean ====
/-
  A block-diagonal averaging row against a plain sum, over the extended reals.

  Rows of a matrix are grouped in A consecutive bags of B rows. Weighting row j by κ when j lies in bag r and by 0
  otherwise, and summing over all A * B rows, is the sum of bag r's rows scaled by κ. On the extended reals this needs
  no finiteness of the summands: 0 · x = 0 for every x, and a factor κ with 0 ≤ κ < ⊤ distributes over a sum of
  arbitrary extended reals.
-/
import Mathlib.Data.EReal.Operations
import Mathlib.Algebra.BigOperators.Fin
import Mathlib.Logic.Equiv.Fin.Basic

namespace Cert.PoolSum

open Finset

/-- A nonnegative finite factor distributes over a finite sum of extended reals. -/
theorem sum_mul_of_nonneg_of_ne_top {ι : Type*} (s : Finset ι) (f : ι → EReal) {κ : EReal} (h0 : 0 ≤ κ) (ht : κ ≠ ⊤) :
    (∑ i ∈ s, f i) * κ = ∑ i ∈ s, f i * κ := by
  classical
  induction s using Finset.induction_on with
  | empty => simp
  | insert a s ha ih =>
    rw [Finset.sum_insert ha, Finset.sum_insert ha, EReal.right_distrib_of_nonneg_of_ne_top h0 ht, ih]

/-- Row `n` of bag `q` is row `n + B * q` of the whole; dividing by `B` gives the bag back. -/
theorem bag_of_row {A B : ℕ} (q : Fin A) (n : Fin B) : ((finProdFinEquiv (q, n) : Fin (A * B)) : ℕ) / B = q.val := by
  have hB : 0 < B := Nat.lt_of_le_of_lt (Nat.zero_le _) n.isLt
  show (n.val + B * q.val) / B = q.val
  rw [Nat.add_mul_div_left _ _ hB, Nat.div_eq_of_lt n.isLt, Nat.zero_add]

/-- The averaging row of bag `r` against `f`: weight `κ` on the rows of bag `r`, `0` elsewhere. -/
theorem blockdiag_sum {A B : ℕ} (r : Fin A) {κ : EReal} (h0 : 0 ≤ κ) (ht : κ ≠ ⊤) (f : Fin (A * B) → EReal) :
    ∑ j : Fin (A * B), (if r.val = j.val / B then κ else 0) * f j
      = (∑ n : Fin B, f (finProdFinEquiv (r, n))) * κ := by
  rw [← Equiv.sum_comp finProdFinEquiv, Fintype.sum_prod_type, sum_mul_of_nonneg_of_ne_top _ _ h0 ht]
  rw [Finset.sum_eq_single r]
  · refine Finset.sum_congr rfl fun n _ => ?_
    rw [bag_of_row, if_pos rfl]
    exact EReal.mul_comm _ _
  · intro q _ hq
    refine Finset.sum_eq_zero fun n _ => ?_
    rw [bag_of_row, if_neg (fun h => hq (Fin.ext h.symm)), zero_mul]
  · intro h; exact absurd (Finset.mem_univ r) h

end Cert.PoolSum
-- ==== Proof.TwoLayer.lean ====
/-
  One instance's prediction: a two-layer perceptron applied to one row.

  For a row x of 512 features the class-c prediction is
      (∑ h, max (∑ d, x d · w1 (d, h) + b1 h) 0 · w2 (h, c)) + b2 c,
  a function of that row alone. A block of M rows pushed through the same two matrix products (each into a zero
  accumulator), with the two biases kept as 1 × n rows broadcast over the M rows and the rectifier a maximum with a
  splat zero, is at entry (p, c) the prediction of the block's row p — for any M, which is what lets two programs that
  cut the rows into blocks of different heights be read by one lemma.
-/
import Idealize.ShloMosaic.Lib.ValueLayout
import Idealize.ShloMosaic.Lib.Pipeline.Value
import Idealize.ShloMosaic.PureOps.Ideal.Laws
import proofs.«137443_g2000502745572654_pallasbulk_917_20_alg».proof.Proof.LibPlainMatmul

noncomputable section

namespace Cert.Mil

open Idealize.ShloMosaic Idealize.ShloMosaic.ValueIdx

/-- The class-`c` prediction for one instance with feature row `xrow`. The zero of the rectifier is kept as the
    pattern the programs print, the same word on both sides. -/
def instRow (xrow : Fin 512 → EReal) (w1 : (⟨2, ![512, 512]⟩ : Shape).Idx → EReal) (b1 : Fin 512 → EReal)
    (w2 : (⟨2, ![512, 128]⟩ : Shape).Idx → EReal) (b2 : Fin 128 → EReal) (c : Fin 128) : EReal :=
  (∑ h : Fin 512, max ((∑ d : Fin 512, xrow d * w1 (ix2 d h)) + b1 h) (Ideal.ofBits .f32 0x00000000#32) * w2 (ix2 h c)) + b2 c

/-- A block of `M` rows through the two layers, read at row `p` and class `q`: the prediction of row `p`. -/
theorem twoLayer_apply {M : ℕ}
    (D1 : DotDims ⟨2, ![M, 512]⟩ ⟨2, ![512, 512]⟩ ⟨2, ![M, 512]⟩) (hD1 : D1 = DotDims.plain M 512 512)
    (D2 : DotDims ⟨2, ![M, 512]⟩ ⟨2, ![512, 128]⟩ ⟨2, ![M, 128]⟩) (hD2 : D2 = DotDims.plain M 512 128)
    (hx : (⟨2, ![M, 512]⟩ : Shape).ShapeCasts ⟨2, ![M, 512]⟩)
    (h1 : (⟨2, ![1, 512]⟩ : Shape).ShapeCasts ⟨2, ![1, 512]⟩) (hb1 : (⟨2, ![1, 512]⟩ : Shape).Broadcasts ⟨2, ![M, 512]⟩)
    (h2 : (⟨2, ![1, 128]⟩ : Shape).ShapeCasts ⟨2, ![1, 128]⟩) (hb2 : (⟨2, ![1, 128]⟩ : Shape).Broadcasts ⟨2, ![M, 128]⟩)
    (x0 : FVec Ideal ⟨2, ![M, 512]⟩ .f32) (x1 : FVec Ideal ⟨2, ![512, 512]⟩ .f32) (x2 : FVec Ideal ⟨2, ![1, 512]⟩ .f32)
    (x3 : FVec Ideal ⟨2, ![512, 128]⟩ .f32) (x4 : FVec Ideal ⟨2, ![1, 128]⟩ .f32) (p : Fin M) (q : Fin 128) :
    addf (matmul D2 none
        (maximumf (addf (matmul D1 none (shapeCast ⟨2, ![M, 512]⟩ x0 hx) x1 (constant (F := Ideal) ⟨2, ![M, 512]⟩ .f32 0x00000000#32))
            (broadcastTo ⟨2, ![M, 512]⟩ (shapeCast ⟨2, ![1, 512]⟩ x2 h1) hb1))
          (broadcast ⟨2, ![M, 512]⟩ (Scalar.ofBits (F := Ideal) .f32 0x00000000#32)))
        x3 (constant (F := Ideal) ⟨2, ![M, 128]⟩ .f32 0x00000000#32))
      (broadcastTo ⟨2, ![M, 128]⟩ (shapeCast ⟨2, ![1, 128]⟩ x4 h2) hb2) (ix2 p q)
    = instRow (fun d => x0 (ix2 p d)) x1 (fun h => x2 (ix2 (0 : Fin 1) h)) x3 (fun c => x4 (ix2 (0 : Fin 1) c)) q := by
  rw [addf_apply, Cert.LibPlainMatmul.matmul_eq_plain_zero_apply D2 hD2, broadcastTo_1b_ab_apply]
  simp only [shapeCast_self]
  unfold instRow
  refine congrArg (· + x4 (ix2 (0 : Fin 1) q)) (Finset.sum_congr rfl fun h _ => ?_)
  rw [maximumf_apply, addf_apply, Cert.LibPlainMatmul.matmul_eq_plain_zero_apply D1 hD1, broadcastTo_1b_ab_apply,
    broadcast_apply]
  rfl

end Cert.Mil

end
-- ==== Proof.BagMean.lean ====
/-
  All instance predictions, and each bag's mean prediction, as functions of the flat arrays.

  The 256 bags of 64 instances are flattened to 16384 rows: instance n of bag b is row b · 64 + n. Every row gets its
  two-layer prediction; a bag's prediction is the sum of its 64 rows' predictions times κ, the number the pattern
  0x3C800000 denotes (1/64).

  Two ways of computing the bag mean meet here. One re-lays a block of 4096 rows as 64 bags × 64 rows, sums along the
  rows of each bag and multiplies by κ. The other multiplies a block of 512 rows (8 bags) from the left by an 8 × 512
  matrix holding κ at (r, j) when row j belongs to bag r (j / 64 = r) and 0 elsewhere. Since 0 ≤ κ < ⊤, and 0 · x = 0
  on the extended reals, the second is the first whatever the predictions are — no finiteness is used.
-/
import Idealize.ShloMosaic.Lib.ValueLayout
import Idealize.ShloMosaic.PureOps.Ideal.Laws
import proofs.«137443_g2000502745572654_pallasbulk_917_20_alg».proof.Proof.LibRelayout
import proofs.«137443_g2000502745572654_pallasbulk_917_20_alg».proof.Proof.LibPlainMatmul
import proofs.«137443_g2000502745572654_pallasbulk_917_20_alg».proof.Proof.PoolSum
import proofs.«137443_g2000502745572654_pallasbulk_917_20_alg».proof.Proof.TwoLayer

noncomputable section

namespace Cert.Mil

open Idealize.ShloMosaic Idealize.ShloMosaic.ValueIdx

/-- The averaging weight: what the pattern `0x3C800000` denotes. -/
abbrev κ : EReal := Ideal.ofBits .f32 0x3C800000#32

/-- It is the real number 1/64. -/
theorem κ_eq : κ = ((1 / 64 : ℝ) : EReal) := by
  simp [κ, Ideal.ofBits, Ideal.ieee, -EReal.coe_mul]; norm_num

theorem κ_nonneg : 0 ≤ κ := by
  rw [κ_eq]; exact EReal.coe_nonneg.mpr (by norm_num)

theorem κ_ne_top : κ ≠ ⊤ := by
  rw [κ_eq]; exact EReal.coe_ne_top _

/-- Every instance's predictions: row `r`, class `c` is the two-layer prediction of row `r` of `X`. -/
def InstG (X : FVec Ideal ⟨2, ![16384, 512]⟩ .f32) (W1 : FVec Ideal ⟨2, ![512, 512]⟩ .f32) (B1 : FVec Ideal ⟨2, ![1, 512]⟩ .f32)
    (W2 : FVec Ideal ⟨2, ![512, 128]⟩ .f32) (B2 : FVec Ideal ⟨2, ![1, 128]⟩ .f32) : FVec Ideal ⟨2, ![16384, 128]⟩ .f32 :=
  fun i => instRow (fun d => X (ix2 (i 0) d)) W1 (fun h => B1 (ix2 (0 : Fin 1) h)) W2 (fun c => B2 (ix2 (0 : Fin 1) c)) (i 1)

/-- Every instance's predictions from the five argument arrays: the bags flattened to 16384 rows, each bias made a row. -/
def flatInst (bags : FVec Ideal ⟨3, ![256, 64, 512]⟩ .f32) (w1 : FVec Ideal ⟨2, ![512, 512]⟩ .f32) (b1 : FVec Ideal ⟨1, ![512]⟩ .f32)
    (w2 : FVec Ideal ⟨2, ![512, 128]⟩ .f32) (b2 : FVec Ideal ⟨1, ![128]⟩ .f32)
    (h0 : (⟨3, ![256, 64, 512]⟩ : Shape).ShapeCasts ⟨2, ![16384, 512]⟩) (h1 : (⟨1, ![512]⟩ : Shape).ShapeCasts ⟨2, ![1, 512]⟩)
    (h2 : (⟨1, ![128]⟩ : Shape).ShapeCasts ⟨2, ![1, 128]⟩) : FVec Ideal ⟨2, ![16384, 128]⟩ .f32 :=
  InstG (shapeCast ⟨2, ![16384, 512]⟩ bags h0) w1 (shapeCast ⟨2, ![1, 512]⟩ b1 h1) w2 (shapeCast ⟨2, ![1, 128]⟩ b2 h2)

/-- Instance `n` of bag `b` as a row of the flat array. -/
def bagRow (b : Fin 256) (n : Fin 64) : Fin 16384 := ⟨b.val * 64 + n.val, by have := b.isLt; have := n.isLt; omega⟩

/-- Every bag's prediction from the instance predictions `Y`: the sum over the bag's rows, times κ. -/
def BagG (Y : FVec Ideal ⟨2, ![16384, 128]⟩ .f32) : FVec Ideal ⟨2, ![256, 128]⟩ .f32 :=
  fun i => (∑ n : Fin 64, Y (ix2 (bagRow (i 0) n) (i 1))) * κ

/-- A block of 4096 rows re-laid as 64 bags of 64 rows, summed along each bag's rows and scaled by the splat weight,
    read at bag `b` of the block and class `q`. -/
theorem sumRows_apply (Y : FVec Ideal ⟨2, ![4096, 128]⟩ .f32)
    (hc : (⟨2, ![4096, 128]⟩ : Shape).ShapeCasts ⟨3, ![64, 64, 128]⟩)
    (hr : (⟨3, ![64, 64, 128]⟩ : Shape).Reduces [1] ⟨2, ![64, 128]⟩)
    (hφ : FKind.Formats .f32) (hacc : (0x00000000#32 : BitVec 32) = FKind.add.neutral .f32 hφ)
    (b : Fin 64) (q : Fin 128) :
    mulf (multiReduction .add [1] ⟨2, ![64, 128]⟩ (shapeCast ⟨3, ![64, 64, 128]⟩ Y hc) 0x00000000#32 hr hφ hacc)
        (broadcast ⟨2, ![64, 128]⟩ (Scalar.ofBits (F := Ideal) .f32 0x3C800000#32)) (ix2 b q)
      = (∑ n : Fin 64, Y (ix2 (⟨b.val * 64 + n.val, by have := b.isLt; have := n.isLt; omega⟩ : Fin 4096) q)) * κ := by
  rw [mulf_apply, broadcast_apply]
  refine congrArg (· * κ) ?_
  refine (Ideal.multiReduction_add_single (shapeCast ⟨3, ![64, 64, 128]⟩ Y hc) 0x00000000#32 hr hφ hacc (ix2 b q)).trans ?_
  refine Finset.sum_congr rfl fun n _ => ?_
  have hl : hr.lift (ix2 b q) n = ix3 b n q := funext fun a => Fin.ext (by
    match a with
    | ⟨0, _⟩ => rfl
    | ⟨1, _⟩ => rfl
    | ⟨2, _⟩ => rfl)
  rw [hl]
  exact Cert.LibRelayout.shapeCast_nc_abc_apply Y hc b n q _ rfl

/-- The averaging matrix: κ where row `j` of the block lies in bag `r`, 0 elsewhere. -/
def poolAt (r : Fin 8) (j : Fin 512) : EReal := if r.val = j.val / 64 then κ else 0

/-- The averaging matrix times a block of 512 rows, at bag `r` of the block: the sum of that bag's 64 rows, times κ. -/
theorem pool_sum (r : Fin 8) (f : Fin 512 → EReal) :
    ∑ j : Fin 512, poolAt r j * f j
      = (∑ n : Fin 64, f (⟨r.val * 64 + n.val, by have := r.isLt; have := n.isLt; omega⟩ : Fin 512)) * κ := by
  have h := Cert.PoolSum.blockdiag_sum (A := 8) (B := 64) r κ_nonneg κ_ne_top f
  refine h.trans (congrArg (· * κ) (Finset.sum_congr rfl fun n _ => congrArg f (Fin.ext ?_)))
  show n.val + 64 * r.val = r.val * 64 + n.val
  omega

/-- Bag `b`'s place among the 8 bags of its block of 512 rows. -/
def bagInBlock (b : Fin 256) : Fin 8 := ⟨b.val % 8, Nat.mod_lt _ (by norm_num)⟩

/-- Row `j` of the block of 512 rows that holds bag `b`, as a row of the flat array. -/
def blockRowOfBag (b : Fin 256) (j : Fin 512) : Fin 16384 :=
  ⟨b.val / 8 * 512 + j.val, by have := b.isLt; have := j.isLt; omega⟩

/-- Every bag's prediction as the averaging matrix computes it: the bag's row of the averaging matrix against the
    512 rows of the bag's block. -/
def BagPool (Y : FVec Ideal ⟨2, ![16384, 128]⟩ .f32) : FVec Ideal ⟨2, ![256, 128]⟩ .f32 :=
  fun i => ∑ j : Fin 512, poolAt (bagInBlock (i 0)) j * Y (ix2 (blockRowOfBag (i 0) j) (i 1))

/-- The two bag means agree, whatever the instance predictions are. -/
theorem bagPool_eq (Y : FVec Ideal ⟨2, ![16384, 128]⟩ .f32) : BagPool Y = BagG Y := by
  funext i
  unfold BagPool BagG
  rw [pool_sum (bagInBlock (i 0)) (fun j => Y (ix2 (blockRowOfBag (i 0) j) (i 1)))]
  refine congrArg (· * κ) (Finset.sum_congr rfl fun n _ => congrArg (fun r => Y (ix2 r (i 1))) (Fin.ext ?_))
  show (i 0).val / 8 * 512 + ((i 0).val % 8 * 64 + n.val) = (i 0).val * 64 + n.val
  omega

end Cert.Mil

end
-- ==== Proof.KernelArrays.lean ====
/-
  What the fused kernel leaves in its two output arrays.

  The grid has 4 points; point t stages rows t · 4096 … t · 4096 + 4095 of the flattened bags (64 bags) together with
  the whole weight matrices and bias rows, and writes back rows t · 4096 … of the instance predictions and bags
  t · 64 … t · 64 + 63 of the bag predictions. Each written block is the restriction of one function of the whole
  arrays — every instance's two-layer prediction, and every bag's mean of them — so after the four points the arrays
  hold those functions.
-/
import proofs.«137443_g2000502745572654_pallasbulk_917_20_alg».proof.Proof.Gen.KernelIdeal.Frame
import proofs.«137443_g2000502745572654_pallasbulk_917_20_alg».proof.Proof.BagMean
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.Mil

variable (m : (ℓ : Loc nD τ sig) → Buf (Elt Ideal) ℓ) (ρ : Dev nD → PrngReg)

theorem hz : (![0, 0] : Fin 2 → Nat) = fun _ => 0 := funext fun a => by fin_cases a <;> rfl

/-- The body's first stored value at row `p`, class `q` of the block: the two-layer prediction of the block's row `p`. -/
theorem pay1_apply (x0 : Vec Ideal S4096x512 .f32) (x1 : Vec Ideal S512x512 .f32) (x2 : Vec Ideal S1x512 .f32)
    (x3 : Vec Ideal S512x128 .f32) (x4 : Vec Ideal S1x128 .f32) (p : Fin 4096) (q : Fin 128) :
    k0_pay1 (F := Ideal) x0 x1 x2 x3 x4 (ix2 p q)
      = instRow (fun d => x0 (ix2 p d)) x1 (fun h => x2 (ix2 (0 : Fin 1) h)) x3 (fun c => x4 (ix2 (0 : Fin 1) c)) q := by
  unfold k0_pay1
  exact twoLayer_apply _ rfl _ rfl _ _ _ _ _ x0 x1 x2 x3 x4 p q

/-- The body's second stored value at bag `b` of the block, class `q`: the sum of the first over the bag's 64 rows, times κ. -/
theorem pay2_apply (x0 : Vec Ideal S4096x512 .f32) (x1 : Vec Ideal S512x512 .f32) (x2 : Vec Ideal S1x512 .f32)
    (x3 : Vec Ideal S512x128 .f32) (x4 : Vec Ideal S1x128 .f32) (b : Fin 64) (q : Fin 128) :
    k0_pay2 (F := Ideal) x0 x1 x2 x3 x4 (ix2 b q)
      = (∑ n : Fin 64, k0_pay1 (F := Ideal) x0 x1 x2 x3 x4
          (ix2 (⟨b.val * 64 + n.val, by have := b.isLt; have := n.isLt; omega⟩ : Fin 4096) q)) * κ := by
  unfold k0_pay2
  exact sumRows_apply _ _ _ _ _ b q

/-- The printed index maps over the grid: the row-blocked windows sit at block `t`, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 4 := lt_of_lt_of_eq t.isLt N_0

/-- Row `p` of point `t`'s block of 4096 rows, as a row of the flat array. -/
def blockRow (t : Fin cfg0.N) (p : Fin 4096) : Fin 16384 :=
  ⟨t.val * 4096 + p.val, by have := point_lt t; have := p.isLt; omega⟩

/-- Point `t`'s block of the flattened bags is rows `t · 4096 …` of it. -/
theorem iblk0_apply (c : Dev nD) (t : Fin cfg0.N) (p : Fin 4096) (d : Fin 512) :
    iblk m c 0 t (ix2 p d) = V m c main_v0 (ix2 (blockRow t p) d) := by
  obtain ⟨e00, e01, -⟩ := idx_facts t
  show V m c main_v0 (((cfg0.win 0).blk t).view.emb (ix2 p d)) = _
  refine congrArg (V m c main_v0) (funext fun a => Fin.ext ?_)
  match a with
  | ⟨0, _⟩ => show win0_0.index t (0 : Fin 2) * 4096 + 1 * p.val = t.val * 4096 + p.val; omega
  | ⟨1, _⟩ => show win0_0.index t (1 : Fin 2) * 512 + 1 * d.val = d.val; omega

/-- The first weight matrix is staged whole at every point. -/
theorem iblk1_apply (c : Dev nD) (t : Fin cfg0.N) (y : S512x512.Idx) : iblk m c 1 t y = V m c main_arg1 y := by
  obtain ⟨-, -, e10, e11, -⟩ := idx_facts t
  show V m c main_arg1 (((cfg0.win 1).blk t).view.emb y) = _
  refine congrArg (V m c main_arg1) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The first bias row is staged whole at every point. -/
theorem iblk2_apply (c : Dev nD) (t : Fin cfg0.N) (y : S1x512.Idx) : iblk m c 2 t y = V m c main_v1 y := by
  obtain ⟨-, -, -, -, e20, e21, -⟩ := idx_facts t
  show V m c main_v1 (((cfg0.win 2).blk t).view.emb y) = _
  refine congrArg (V m c main_v1) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- The second weight matrix is staged whole at every point. -/
theorem iblk3_apply (c : Dev nD) (t : Fin cfg0.N) (y : S512x128.Idx) : iblk m c 3 t y = V m c main_arg3 y := by
  obtain ⟨-, -, -, -, -, -, e30, e31, -⟩ := idx_facts t
  show V m c main_arg3 (((cfg0.win 3).blk t).view.emb y) = _
  refine congrArg (V m c main_arg3) (funext fun a => Fin.ext ?_)
  match a with
  | ⟨0, _⟩ => show win0_3.index t (0 : Fin 2) * 512 + 1 * (y 0).val = (y 0).val; omega
  | ⟨1, _⟩ => show win0_3.index t (1 : Fin 2) * 128 + 1 * (y 1).val = (y 1).val; omega

/-- The second bias row is staged whole at every point. -/
theorem iblk4_apply (c : Dev nD) (t : Fin cfg0.N) (y : S1x128.Idx) : iblk m c 4 t y = V m c main_v2 y := by
  obtain ⟨-, -, -, -, -, -, -, -, e40, e41, -⟩ := idx_facts t
  show V m c main_v2 (((cfg0.win 4).blk t).view.emb y) = _
  refine congrArg (V m c main_v2) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The body's first stored value at point `t`, read at row `p` and class `q` of the block, is the prediction of row
    `t · 4096 + p` of the flat array. -/
theorem pay1_at (c : Dev nD) (t : Fin cfg0.N) (p : Fin 4096) (q : Fin 128) :
    k0_pay1 (F := Ideal) (iblk m c 0 t) (iblk m c 1 t) (iblk m c 2 t) (iblk m c 3 t) (iblk m c 4 t) (ix2 p q)
      = InstG (V m c main_v0) (V m c main_arg1) (V m c main_v1) (V m c main_arg3) (V m c main_v2) (ix2 (blockRow t p) q) := by
  refine (pay1_apply (iblk m c 0 t) (iblk m c 1 t) (iblk m c 2 t) (iblk m c 3 t) (iblk m c 4 t) p q).trans ?_
  unfold InstG
  have h0 : (fun d => iblk m c 0 t (ix2 p d)) = fun d => V m c main_v0 (ix2 (blockRow t p) d) :=
    funext fun d => iblk0_apply m c t p d
  have h1 : (iblk m c 1 t : S512x512.Idx → EReal) = V m c main_arg1 := funext fun y => iblk1_apply m c t y
  have h2 : (fun h => iblk m c 2 t (ix2 (0 : Fin 1) h)) = fun h => V m c main_v1 (ix2 (0 : Fin 1) h) :=
    funext fun h => iblk2_apply m c t _
  have h3 : (iblk m c 3 t : S512x128.Idx → EReal) = V m c main_arg3 := funext fun y => iblk3_apply m c t y
  have h4 : (fun k => iblk m c 4 t (ix2 (0 : Fin 1) k)) = fun k => V m c main_v2 (ix2 (0 : Fin 1) k) :=
    funext fun k => iblk4_apply m c t _
  rw [h0, h1, h2, h3, h4]

/-- WHAT POINT `t` WRITES BACK to the instance predictions is block `t` of every instance's prediction. -/
theorem flushed5_eq (c : Dev nD) (t : Fin cfg0.N) :
    (dats m 0 c).flushed 5 t = ((cfg0.win 5).blk t).view.read (Elt Ideal)
      (InstG (V m c main_v0) (V m c main_arg1) (V m c main_v1) (V m c main_arg3) (V m c main_v2)) := by
  show (cfg0.win 5).cut (grid0.coords t) ((dats m 0 c).after 5 t) = _
  rw [after0_5]
  unfold out0_5
  rw [View.canon_unit_zero hz]
  simp only [View.ld_unit_zero (S := S4096x512) hz, View.ld_unit_zero (S := S512x512) hz, View.ld_unit_zero (S := S1x512) hz,
    View.ld_unit_zero (S := S512x128) hz, View.ld_unit_zero (S := S1x128) hz]
  obtain ⟨e00, e01, e10, e11, e20, e21, e30, e31, e40, e41, e50, e51, e60, e61⟩ := idx_facts t
  funext j
  show k0_pay1 (F := Ideal) (iblk m c 0 t) (iblk m c 1 t) (iblk m c 2 t) (iblk m c 3 t) (iblk m c 4 t) j
      = InstG (V m c main_v0) (V m c main_arg1) (V m c main_v1) (V m c main_arg3) (V m c main_v2) (((cfg0.win 5).blk t).view.emb j)
  obtain ⟨p, q, rfl⟩ : ∃ (p : Fin 4096) (q : Fin 128), j = ix2 p q := ⟨j 0, j 1, eq_ix2 j⟩
  refine (pay1_at m c t p q).trans (congrArg _ (funext fun a => Fin.ext ?_))
  match a with
  | ⟨0, _⟩ => show t.val * 4096 + p.val = win0_5.index t (0 : Fin 2) * 4096 + 1 * p.val; omega
  | ⟨1, _⟩ => show q.val = win0_5.index t (1 : Fin 2) * 128 + 1 * q.val; omega

/-- WHAT POINT `t` WRITES BACK to the bag predictions is block `t` of every bag's mean prediction. -/
theorem flushed6_eq (c : Dev nD) (t : Fin cfg0.N) :
    (dats m 0 c).flushed 6 t = ((cfg0.win 6).blk t).view.read (Elt Ideal)
      (BagG (InstG (V m c main_v0) (V m c main_arg1) (V m c main_v1) (V m c main_arg3) (V m c main_v2))) := by
  show (cfg0.win 6).cut (grid0.coords t) ((dats m 0 c).after 6 t) = _
  rw [after0_6]
  unfold out0_6
  rw [View.canon_unit_zero hz]
  simp only [View.ld_unit_zero (S := S4096x512) hz, View.ld_unit_zero (S := S512x512) hz, View.ld_unit_zero (S := S1x512) hz,
    View.ld_unit_zero (S := S512x128) hz, View.ld_unit_zero (S := S1x128) hz]
  obtain ⟨e00, e01, e10, e11, e20, e21, e30, e31, e40, e41, e50, e51, e60, e61⟩ := idx_facts t
  funext j
  show k0_pay2 (F := Ideal) (iblk m c 0 t) (iblk m c 1 t) (iblk m c 2 t) (iblk m c 3 t) (iblk m c 4 t) j
      = BagG (InstG (V m c main_v0) (V m c main_arg1) (V m c main_v1) (V m c main_arg3) (V m c main_v2)) (((cfg0.win 6).blk t).view.emb j)
  obtain ⟨b, q, rfl⟩ : ∃ (b : Fin 64) (q : Fin 128), j = ix2 b q := ⟨j 0, j 1, eq_ix2 j⟩
  refine (pay2_apply (iblk m c 0 t) (iblk m c 1 t) (iblk m c 2 t) (iblk m c 3 t) (iblk m c 4 t) b q).trans ?_
  unfold BagG
  refine congrArg (· * κ) (Finset.sum_congr rfl fun n _ => ?_)
  refine (pay1_at m c t _ q).trans (congrArg _ (funext fun a => Fin.ext ?_))
  have hb := b.isLt; have hn := n.isLt; have ht := point_lt t
  match a with
  | ⟨0, _⟩ => show t.val * 4096 + (b.val * 64 + n.val) = (win0_6.index t (0 : Fin 2) * 64 + 1 * b.val) * 64 + n.val; omega
  | ⟨1, _⟩ => show q.val = win0_6.index t (1 : Fin 2) * 128 + 1 * q.val; omega

/-- An index of the instance predictions is in point `t`'s block iff each coordinate is in the block's range. -/
theorem mem_blk5 (t : Fin cfg0.N) (i : S16384x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v3_0).slice (win0_5.rect t)).set ↔ _
  rw [View.set_slice_whole, Rect.mem_set_unit]
  exact Iff.rfl

theorem mem_blk6 (t : Fin cfg0.N) (i : S256x128.Idx) :
    i ∈ ((cfg0.win 6).blk t).view.set ↔ ∀ a : Fin 2, win0_6.index t a * S64x128.size a ≤ (i a).val ∧ (i a).val < win0_6.index t a * S64x128.size a + S64x128.size a := by
  show i ∈ ((View.whole main_v3_1).slice (win0_6.rect t)).set ↔ _
  rw [View.set_slice_whole, Rect.mem_set_unit]
  exact Iff.rfl

/-- Every row block is some point's. -/
theorem idx_onto5 : ∀ q0 : Fin 4, ∃ t : Fin cfg0.N, win0_5.index t = ![q0.val, 0] :=
  (by decide +kernel : ∀ q0 : Fin 4, ∃ t : Fin grid0.N, win0_5.index t = ![q0.val, 0])

theorem idx_onto6 : ∀ q0 : Fin 4, ∃ t : Fin cfg0.N, win0_6.index t = ![q0.val, 0] :=
  (by decide +kernel : ∀ q0 : Fin 4, ∃ t : Fin grid0.N, win0_6.index t = ![q0.val, 0])

/-- Row `r` of the instance predictions is written by the point `r / 4096`. -/
theorem cover5 (i : S16384x128.Idx) : ∃ t : Fin cfg0.N, (cfg0.win 5).flush t = true ∧ i ∈ ((cfg0.win 5).blk t).view.set := by
  have hi0 : (i 0).val < 16384 := (i 0).isLt
  have hi1 : (i 1).val < 128 := (i 1).isLt
  obtain ⟨t, ht⟩ := idx_onto5 ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- Bag `b` is written by the point `b / 64`. -/
theorem cover6 (i : S256x128.Idx) : ∃ t : Fin cfg0.N, (cfg0.win 6).flush t = true ∧ i ∈ ((cfg0.win 6).blk t).view.set := by
  have hi0 : (i 0).val < 256 := (i 0).isLt
  have hi1 : (i 1).val < 128 := (i 1).isLt
  obtain ⟨t, ht⟩ := idx_onto6 ⟨(i 0).val / 64, by omega⟩
  have q0 : win0_6.index t (0 : Fin 2) = (i 0).val / 64 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 64 ≤ (i 0).val ∧ (i 0).val < win0_6.index t (0 : Fin 2) * 64 + 64; omega
  | ⟨1, _⟩ => show win0_6.index t (1 : Fin 2) * 128 ≤ (i 1).val ∧ (i 1).val < win0_6.index t (1 : Fin 2) * 128 + 128; omega

/-- THE INSTANCE PREDICTIONS after the run. -/
theorem final5 (c : Dev nD) : (dats m 0 c).arrAt 5 cfg0.N
    = InstG (V m c main_v0) (V m c main_arg1) (V m c main_v1) (V m c main_arg3) (V m c main_v2) :=
  (dats m 0 c).arrAt_eq_of_cover 5 _ (fun t _ => flushed5_eq m c t) cover5

/-- THE BAG PREDICTIONS after the run. -/
theorem final6 (c : Dev nD) : (dats m 0 c).arrAt 6 cfg0.N
    = BagG (InstG (V m c main_v0) (V m c main_arg1) (V m c main_v1) (V m c main_arg3) (V m c main_v2)) :=
  (dats m 0 c).arrAt_eq_of_cover 6 _ (fun t _ => flushed6_eq m c t) cover6

/-- The line after the region re-lays the instance predictions as bags × instances × classes. -/
theorem tail_v4 (c : Dev nD) :
    Pipeline.afterTail₀ cfgs (dats m) 0 (V0 m) [hostOps1] c main_v4
      = shapeCast S256x64x128 (InstG (V m c main_v0) (V m c main_arg1) (V m c main_v1) (V m c main_arg3) (V m c main_v2))
          Facts₀.shapeCasts_S16384x128_S256x64x128 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3_0)
      = InstG (V m c main_v0) (V m c main_arg1) (V m c main_v1) (V m c main_arg3) (V m c main_v2) :=
    (Pipeline.withArrays_arr spec0 launch0.win.arr_inj c _ _ 5).trans (final5 m c)
  rw [hw]
  rfl

/-- The host lines before the region: the bags flattened to rows, each bias made a row. -/
theorem V_main_v0 (c : Dev nD) : (V m c main_v0 : S16384x512.Idx → EReal)
    = shapeCast S16384x512 (m ((c : Thread nD τ).loc main_arg0)) Facts₀.shapeCasts_S256x64x512_S16384x512 := by
  show StableHlo.after hostOps0 (fun b => m (c, b)) (Proc.devRef .tc main_v0) = _
  after_results
  rfl

theorem V_main_v1 (c : Dev nD) : (V m c main_v1 : S1x512.Idx → EReal)
    = shapeCast S1x512 (m ((c : Thread nD τ).loc main_arg2)) Facts₀.shapeCasts_S512_S1x512 := by
  show StableHlo.after hostOps0 (fun b => m (c, b)) (Proc.devRef .tc main_v1) = _
  after_results
  rfl

theorem V_main_v2 (c : Dev nD) : (V m c main_v2 : S1x128.Idx → EReal)
    = shapeCast S1x128 (m ((c : Thread nD τ).loc main_arg4)) Facts₀.shapeCasts_S128_S1x128 := by
  show StableHlo.after hostOps0 (fun b => m (c, b)) (Proc.devRef .tc main_v2) = _
  after_results
  rfl

/-- The instance predictions, as a function of the argument arrays. -/
theorem inst_args (c : Dev nD) :
    InstG (V m c main_v0) (V m c main_arg1) (V m c main_v1) (V m c main_arg3) (V m c main_v2)
      = flatInst (m ((c : Thread nD τ).loc main_arg0)) (m ((c : Thread nD τ).loc main_arg1)) (m ((c : Thread nD τ).loc main_arg2))
          (m ((c : Thread nD τ).loc main_arg3)) (m ((c : Thread nD τ).loc main_arg4))
          Facts₀.shapeCasts_S256x64x512_S16384x512 Facts₀.shapeCasts_S512_S1x512 Facts₀.shapeCasts_S128_S1x128 := by
  unfold flatInst
  rw [V_main_v0, V_main_arg1 m c, V_main_v1, V_main_arg3 m c, V_main_v2]

/-- The run, with both results named as functions of the argument arrays, and the arguments unchanged. -/
theorem run : θ_run defs (onTc (τ := τ) (main (F := Ideal))) ⟨m, fun _ => 0, ρ⟩ fun r => ∀ c : Dev nD,
      r.2.mem ((c : Thread nD τ).loc main_v3_1)
        = BagG (flatInst (m ((c : Thread nD τ).loc main_arg0)) (m ((c : Thread nD τ).loc main_arg1)) (m ((c : Thread nD τ).loc main_arg2))
            (m ((c : Thread nD τ).loc main_arg3)) (m ((c : Thread nD τ).loc main_arg4))
            Facts₀.shapeCasts_S256x64x512_S16384x512 Facts₀.shapeCasts_S512_S1x512 Facts₀.shapeCasts_S128_S1x128)
      ∧ r.2.mem ((c : Thread nD τ).loc main_v4)
        = shapeCast S256x64x128 (flatInst (m ((c : Thread nD τ).loc main_arg0)) (m ((c : Thread nD τ).loc main_arg1)) (m ((c : Thread nD τ).loc main_arg2))
            (m ((c : Thread nD τ).loc main_arg3)) (m ((c : Thread nD τ).loc main_arg4))
            Facts₀.shapeCasts_S256x64x512_S16384x512 Facts₀.shapeCasts_S512_S1x512 Facts₀.shapeCasts_S128_S1x128)
            Facts₀.shapeCasts_S16384x128_S256x64x128
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).1 6).trans ((final6 m c).trans (congrArg BagG (inst_args m c))),
      ((h c).2 main_v4 (Pipeline.mem_restRefs_of main_v4 (by decide) (by decide))).trans
        ((tail_v4 m c).trans (congrArg (fun Y => shapeCast S256x64x128 Y Facts₀.shapeCasts_S16384x128_S256x64x128) (inst_args m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Arrays

end
-- ==== Proof.ReferencePool.lean ====
/-
  The averaging matrix the reference builds on the host.

  Before its kernel is launched the reference computes, with integer operations on 32-bit words, an 8 × 512 matrix:
  entry (r, j) compares the row number r with the floor quotient of the column number j by 64 — the quotient rounded
  toward zero, lowered by one when the operands' signs differ and the remainder is not zero — and selects κ (the pattern
  0x3C800000) where they are equal and the zero pattern elsewhere. For 0 ≤ j < 512 and the divisor 64 the signs never
  differ with a nonzero remainder, the quotient is j / 64 as a natural number, and the entry is κ exactly when
  r = j / 64.
-/
import proofs.«137443_g2000502745572654_pallasbulk_917_20_alg».proof.Proof.Gen.ReferenceIdeal.Frame
import proofs.«137443_g2000502745572654_pallasbulk_917_20_alg».proof.Proof.BagMean
import Idealize.ShloMosaic.Lib.Pipeline.Value
import Idealize.ShloMosaic.Lib.IdealHost

set_option maxRecDepth 16384

noncomputable section

namespace Cert.ReferenceIdeal.Pool

open Cert.ReferenceIdeal Cert.ReferenceIdeal.Gen Idealize.ShloMosaic Idealize.ShloMosaic.TcCoe Idealize.SL.Sem
open Idealize.ShloMosaic.ValueIdx Cert.Mil

variable (m : (ℓ : Loc nD τ sig) → Buf (Elt Ideal) ℓ) (ρ : Dev nD → PrngReg)

/-- The column numbers 0 … 511 as a 1 × 512 row of words. -/
def colNo : IVec S1x512 32 := broadcastInDim S1x512 ![1] Facts₀.bcast_S512_S1x512_1 (iotaInDim S512 32 0)

/-- The divisor 64 splat over the row. -/
def div64 : IVec S1x512 32 := broadcastInDim S1x512 ![] Facts₀.bcast_S_S1x512 (id (constantI S_ 32 64#32))

/-- The floor quotient of the column numbers by 64, as the host computes it. -/
def colBag : IVec S1x512 32 :=
  select
    (andi (cmpi .ne (signi colNo) (broadcastInDim S1x512 ![] Facts₀.bcast_S_S1x512 (signi (id (constantI S_ 32 64#32)))))
      (cmpi .ne (Host.remsi colNo div64) (broadcastInDim S1x512 ![] Facts₀.bcast_S_S1x512 (constantI S_ 32 0#32))))
    (subi (Host.divsi colNo div64) (broadcastInDim S1x512 ![] Facts₀.bcast_S_S1x512 (constantI S_ 32 1#32)))
    (Host.divsi colNo div64)

/-- The averaging matrix as the composition of the host's operations. -/
def poolTerm : FVec Ideal S8x512 .f32 :=
  select
    (cmpi .eq
      (broadcastInDim S8x512 ![0, 1] Facts₀.bcast_S8x1_S8x512_0_1 (broadcastInDim S8x1 ![0] Facts₀.bcast_S8_S8x1_0 (iotaInDim S8 32 0)))
      (broadcastInDim S8x512 ![0, 1] Facts₀.bcast_S1x512_S8x512_0_1 colBag))
    (broadcastInDim S8x512 ![] Facts₀.bcast_S_S8x512 (constant (F := Ideal) S_ .f32 0x3C800000#32))
    (broadcastInDim S8x512 ![] Facts₀.bcast_S_S8x512 (constant (F := Ideal) S_ .f32 0x00000000#32))

set_option maxHeartbeats 1000000 in
/-- The window the kernel stages as its averaging matrix holds that composition. -/
theorem V_main_v11 (c : Dev nD) : (V m c main_v11 : S8x512.Idx → EReal) = poolTerm := by
  show StableHlo.after (List.flatten [hostOps0, hostOps0_1, hostOps0_2, hostOps0_3]) (fun b => m (c, b)) (Proc.devRef .tc main_v11) = _
  rfl

/-- The sign of a word as the host's `sign` computes it. -/
def sgn (x : BitVec 32) : BitVec 32 := if x = 0 then 0 else if x.msb then -1 else 1

/-- One element of the host's floor quotient by 64. -/
def fdiv64 (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

/-- Entry `(r, j)` of the composition, element by element. -/
theorem poolTerm_apply (r : Fin 8) (j : Fin 512) :
    poolTerm (ix2 r j) = Scalar.select (IntOp.cmpi .eq (BitVec.ofNat 32 r.val) (fdiv64 (BitVec.ofNat 32 j.val)))
      (Ideal.ofBits .f32 0x3C800000#32) (Ideal.ofBits .f32 0x00000000#32) := rfl

/-- For a column number below 512 the host's floor quotient by 64 is the natural-number quotient. -/
theorem fdiv64_ofNat : ∀ j : Fin 512, fdiv64 (BitVec.ofNat 32 j.val) = BitVec.ofNat 32 (j.val / 64) := by
  decide +kernel

/-- Words of numbers below 8 are equal exactly when the numbers are. -/
theorem cmpi_eq_ofNat : ∀ r q : Fin 8,
    IntOp.cmpi .eq (BitVec.ofNat 32 r.val) (BitVec.ofNat 32 q.val) = if r.val = q.val then 1#1 else 0#1 := by
  decide +kernel

/-- THE AVERAGING MATRIX: κ where column `j` lies in bag `r`, zero elsewhere. -/
theorem V_pool (c : Dev nD) (r : Fin 8) (j : Fin 512) :
    (V m c main_v11 : S8x512.Idx → EReal) (ix2 r j) = poolAt r j := by
  rw [V_main_v11, poolTerm_apply, fdiv64_ofNat]
  have hq : j.val / 64 < 8 := by have := j.isLt; omega
  have h := cmpi_eq_ofNat r ⟨j.val / 64, hq⟩
  rw [show BitVec.ofNat 32 (j.val / 64) = BitVec.ofNat 32 (⟨j.val / 64, hq⟩ : Fin 8).val from rfl, h]
  unfold poolAt
  show Scalar.select (if r.val = j.val / 64 then 1#1 else 0#1) _ _ = _
  split
  · rw [select_one]
  · rw [select_zero, Ideal.ofBits_zero_f32]

end Cert.ReferenceIdeal.Pool

end
-- ==== Proof.ReferenceArrays.lean ====
/-
  What the reference's kernel leaves in its two output arrays.

  The grid has 32 points; point t stages rows t · 512 … t · 512 + 511 of the flattened bags (8 bags) together with the
  8 × 512 averaging matrix, the whole weight matrices and bias rows, and writes back rows t · 512 … of the instance
  predictions and bags t · 8 … t · 8 + 7 of the bag predictions, the latter as the averaging matrix times the block's
  predictions. Each written block is the restriction of one function of the whole arrays, so after the 32 points the
  arrays hold those functions; and the bag predictions so computed are the per-bag sums times κ.
-/
import proofs.«137443_g2000502745572654_pallasbulk_917_20_alg».proof.Proof.Gen.ReferenceIdeal.Frame
import proofs.«137443_g2000502745572654_pallasbulk_917_20_alg».proof.Proof.BagMean
import proofs.«137443_g2000502745572654_pallasbulk_917_20_alg».proof.Proof.ReferencePool
import Idealize.ShloMosaic.Lib.Pipeline.Value

set_option maxRecDepth 16384

noncomputable section

namespace Cert.ReferenceIdeal.Arrays

open Cert.ReferenceIdeal Cert.ReferenceIdeal.Gen Idealize.ShloMosaic Idealize.ShloMosaic.TcCoe Idealize.SL.Sem
open Idealize.ShloMosaic.Pipeline (Dat)
open Idealize.ShloMosaic.ValueIdx Cert.Mil

variable (m : (ℓ : Loc nD τ sig) → Buf (Elt Ideal) ℓ) (ρ : Dev nD → PrngReg)

theorem hz : (![0, 0] : Fin 2 → Nat) = fun _ => 0 := funext fun a => by fin_cases a <;> rfl

/-- The body's first stored value at row `p`, class `q` of the block: the two-layer prediction of the block's row `p`. -/
theorem pay1_apply (x0 : Vec Ideal S512x512 .f32) (x1 : Vec Ideal S512x512 .f32) (x2 : Vec Ideal S1x512 .f32)
    (x3 : Vec Ideal S512x128 .f32) (x4 : Vec Ideal S1x128 .f32) (p : Fin 512) (q : Fin 128) :
    k0_pay1 (F := Ideal) x0 x1 x2 x3 x4 (ix2 p q)
      = instRow (fun d => x0 (ix2 p d)) x1 (fun h => x2 (ix2 (0 : Fin 1) h)) x3 (fun c => x4 (ix2 (0 : Fin 1) c)) q := by
  unfold k0_pay1
  exact twoLayer_apply _ rfl _ rfl _ _ _ _ _ x0 x1 x2 x3 x4 p q

/-- The body's second stored value at bag `r` of the block, class `q`: row `r` of the staged averaging matrix against
    the first stored value's column `q`. -/
theorem pay2_apply (x0 : Vec Ideal S512x512 .f32) (x1 : Vec Ideal S512x512 .f32) (x2 : Vec Ideal S1x512 .f32)
    (x3 : Vec Ideal S512x128 .f32) (x4 : Vec Ideal S1x128 .f32) (w : Vec Ideal S8x512 .f32) (r : Fin 8) (q : Fin 128) :
    k0_pay2 (F := Ideal) x0 x1 x2 x3 x4 w (ix2 r q)
      = ∑ j : Fin 512, w (ix2 r j) * k0_pay1 (F := Ideal) x0 x1 x2 x3 x4 (ix2 j q) := by
  unfold k0_pay2
  refine (Cert.LibPlainMatmul.matmul_eq_plain_zero_apply _ rfl none _ _ r q).trans ?_
  simp only [shapeCast_self]

/-- The printed index maps over the grid: the row-blocked windows sit at block `t`, the others at block 0. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 32 := lt_of_lt_of_eq t.isLt N_0

/-- Row `p` of point `t`'s block of 512 rows, as a row of the flat array. -/
def blockRow (t : Fin cfg0.N) (p : Fin 512) : Fin 16384 :=
  ⟨t.val * 512 + p.val, by have := point_lt t; have := p.isLt; omega⟩

/-- The averaging matrix is staged whole at every point. -/
theorem iblk0_apply (c : Dev nD) (t : Fin cfg0.N) (y : S8x512.Idx) : iblk m c 0 t y = V m c main_v11 y := by
  obtain ⟨e00, e01, -⟩ := idx_facts t
  show V m c main_v11 (((cfg0.win 0).blk t).view.emb y) = _
  refine congrArg (V m c main_v11) (funext fun a => Fin.ext ?_)
  match a with
  | ⟨0, _⟩ => show win0_0.index t (0 : Fin 2) * 8 + 1 * (y 0).val = (y 0).val; omega
  | ⟨1, _⟩ => show win0_0.index t (1 : Fin 2) * 512 + 1 * (y 1).val = (y 1).val; omega

/-- Point `t`'s block of the flattened bags is rows `t · 512 …` of it. -/
theorem iblk1_apply (c : Dev nD) (t : Fin cfg0.N) (p : Fin 512) (d : Fin 512) :
    iblk m c 1 t (ix2 p d) = V m c main_v0 (ix2 (blockRow t p) d) := by
  obtain ⟨-, -, e10, e11, -⟩ := idx_facts t
  show V m c main_v0 (((cfg0.win 1).blk t).view.emb (ix2 p d)) = _
  refine congrArg (V m c main_v0) (funext fun a => Fin.ext ?_)
  match a with
  | ⟨0, _⟩ => show win0_1.index t (0 : Fin 2) * 512 + 1 * p.val = t.val * 512 + p.val; omega
  | ⟨1, _⟩ => show win0_1.index t (1 : Fin 2) * 512 + 1 * d.val = d.val; omega

/-- The first weight matrix is staged whole at every point. -/
theorem iblk2_apply (c : Dev nD) (t : Fin cfg0.N) (y : S512x512.Idx) : iblk m c 2 t y = V m c main_arg1 y := by
  obtain ⟨-, -, -, -, e20, e21, -⟩ := idx_facts t
  show V m c main_arg1 (((cfg0.win 2).blk t).view.emb y) = _
  refine congrArg (V m c main_arg1) (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- The first bias row is staged whole at every point. -/
theorem iblk3_apply (c : Dev nD) (t : Fin cfg0.N) (y : S1x512.Idx) : iblk m c 3 t y = V m c main_v1 y := by
  obtain ⟨-, -, -, -, -, -, e30, e31, -⟩ := idx_facts t
  show V m c main_v1 (((cfg0.win 3).blk t).view.emb y) = _
  refine congrArg (V m c main_v1) (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

/-- The second weight matrix is staged whole at every point. -/
theorem iblk4_apply (c : Dev nD) (t : Fin cfg0.N) (y : S512x128.Idx) : iblk m c 4 t y = V m c main_arg3 y := by
  obtain ⟨-, -, -, -, -, -, -, -, e40, e41, -⟩ := idx_facts t
  show V m c main_arg3 (((cfg0.win 4).blk t).view.emb y) = _
  refine congrArg (V m c main_arg3) (funext fun a => Fin.ext ?_)
  match a with
  | ⟨0, _⟩ => show win0_4.index t (0 : Fin 2) * 512 + 1 * (y 0).val = (y 0).val; omega
  | ⟨1, _⟩ => show win0_4.index t (1 : Fin 2) * 128 + 1 * (y 1).val = (y 1).val; omega

/-- The second bias row is staged whole at every point. -/
theorem iblk5_apply (c : Dev nD) (t : Fin cfg0.N) (y : S1x128.Idx) : iblk m c 5 t y = V m c main_v2 y := by
  obtain ⟨-, -, -, -, -, -, -, -, -, -, e50, e51, -⟩ := idx_facts t
  show V m c main_v2 (((cfg0.win 5).blk t).view.emb y) = _
  refine congrArg (V m c main_v2) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The body's first stored value at point `t`, read at row `p` and class `q` of the block, is the prediction of row
    `t · 512 + p` of the flat array. -/
theorem pay1_at (c : Dev nD) (t : Fin cfg0.N) (p : Fin 512) (q : Fin 128) :
    k0_pay1 (F := Ideal) (iblk m c 1 t) (iblk m c 2 t) (iblk m c 3 t) (iblk m c 4 t) (iblk m c 5 t) (ix2 p q)
      = InstG (V m c main_v0) (V m c main_arg1) (V m c main_v1) (V m c main_arg3) (V m c main_v2) (ix2 (blockRow t p) q) := by
  refine (pay1_apply (iblk m c 1 t) (iblk m c 2 t) (iblk m c 3 t) (iblk m c 4 t) (iblk m c 5 t) p q).trans ?_
  unfold InstG
  have h0 : (fun d => iblk m c 1 t (ix2 p d)) = fun d => V m c main_v0 (ix2 (blockRow t p) d) :=
    funext fun d => iblk1_apply m c t p d
  have h1 : (iblk m c 2 t : S512x512.Idx → EReal) = V m c main_arg1 := funext fun y => iblk2_apply m c t y
  have h2 : (fun h => iblk m c 3 t (ix2 (0 : Fin 1) h)) = fun h => V m c main_v1 (ix2 (0 : Fin 1) h) :=
    funext fun h => iblk3_apply m c t _
  have h3 : (iblk m c 4 t : S512x128.Idx → EReal) = V m c main_arg3 := funext fun y => iblk4_apply m c t y
  have h4 : (fun k => iblk m c 5 t (ix2 (0 : Fin 1) k)) = fun k => V m c main_v2 (ix2 (0 : Fin 1) k) :=
    funext fun k => iblk5_apply m c t _
  rw [h0, h1, h2, h3, h4]

/-- WHAT POINT `t` WRITES BACK to the instance predictions is block `t` of every instance's prediction. -/
theorem flushed6_eq (c : Dev nD) (t : Fin cfg0.N) :
    (dats m 0 c).flushed 6 t = ((cfg0.win 6).blk t).view.read (Elt Ideal)
      (InstG (V m c main_v0) (V m c main_arg1) (V m c main_v1) (V m c main_arg3) (V m c main_v2)) := by
  show (cfg0.win 6).cut (grid0.coords t) ((dats m 0 c).after 6 t) = _
  rw [after0_6]
  unfold out0_6
  rw [View.canon_unit_zero hz]
  simp only [View.ld_unit_zero (S := S8x512) hz, View.ld_unit_zero (S := S512x512) hz, View.ld_unit_zero (S := S1x512) hz,
    View.ld_unit_zero (S := S512x128) hz, View.ld_unit_zero (S := S1x128) hz]
  obtain ⟨e00, e01, e10, e11, e20, e21, e30, e31, e40, e41, e50, e51, e60, e61, e70, e71⟩ := idx_facts t
  funext j
  show k0_pay1 (F := Ideal) (iblk m c 1 t) (iblk m c 2 t) (iblk m c 3 t) (iblk m c 4 t) (iblk m c 5 t) j
      = InstG (V m c main_v0) (V m c main_arg1) (V m c main_v1) (V m c main_arg3) (V m c main_v2) (((cfg0.win 6).blk t).view.emb j)
  obtain ⟨p, q, rfl⟩ : ∃ (p : Fin 512) (q : Fin 128), j = ix2 p q := ⟨j 0, j 1, eq_ix2 j⟩
  refine (pay1_at m c t p q).trans (congrArg _ (funext fun a => Fin.ext ?_))
  match a with
  | ⟨0, _⟩ => show t.val * 512 + p.val = win0_6.index t (0 : Fin 2) * 512 + 1 * p.val; omega
  | ⟨1, _⟩ => show q.val = win0_6.index t (1 : Fin 2) * 128 + 1 * q.val; omega

/-- WHAT POINT `t` WRITES BACK to the bag predictions is block `t` of every bag's prediction by the averaging matrix. -/
theorem flushed7_eq (c : Dev nD) (t : Fin cfg0.N) :
    (dats m 0 c).flushed 7 t = ((cfg0.win 7).blk t).view.read (Elt Ideal)
      (BagPool (InstG (V m c main_v0) (V m c main_arg1) (V m c main_v1) (V m c main_arg3) (V m c main_v2))) := by
  show (cfg0.win 7).cut (grid0.coords t) ((dats m 0 c).after 7 t) = _
  rw [after0_7]
  unfold out0_7
  rw [View.canon_unit_zero hz]
  simp only [View.ld_unit_zero (S := S8x512) hz, View.ld_unit_zero (S := S512x512) hz, View.ld_unit_zero (S := S1x512) hz,
    View.ld_unit_zero (S := S512x128) hz, View.ld_unit_zero (S := S1x128) hz]
  obtain ⟨e00, e01, e10, e11, e20, e21, e30, e31, e40, e41, e50, e51, e60, e61, e70, e71⟩ := idx_facts t
  funext j
  show k0_pay2 (F := Ideal) (iblk m c 1 t) (iblk m c 2 t) (iblk m c 3 t) (iblk m c 4 t) (iblk m c 5 t) (iblk m c 0 t) j
      = BagPool (InstG (V m c main_v0) (V m c main_arg1) (V m c main_v1) (V m c main_arg3) (V m c main_v2)) (((cfg0.win 7).blk t).view.emb j)
  obtain ⟨r, q, rfl⟩ : ∃ (r : Fin 8) (q : Fin 128), j = ix2 r q := ⟨j 0, j 1, eq_ix2 j⟩
  refine (pay2_apply (iblk m c 1 t) (iblk m c 2 t) (iblk m c 3 t) (iblk m c 4 t) (iblk m c 5 t) (iblk m c 0 t) r q).trans ?_
  unfold BagPool
  refine Finset.sum_congr rfl fun k _ => ?_
  have hr := r.isLt; have hk := k.isLt; have ht := point_lt t
  refine congrArg₂ (· * ·) ?_ ?_
  · refine (iblk0_apply m c t (ix2 r k)).trans ((Cert.ReferenceIdeal.Pool.V_pool m c r k).trans (congrArg (fun b => poolAt b k) (Fin.ext ?_)))
    show r.val = (win0_7.index t (0 : Fin 2) * 8 + 1 * r.val) % 8
    omega
  · refine (pay1_at m c t k q).trans (congrArg _ (funext fun a => Fin.ext ?_))
    match a with
    | ⟨0, _⟩ => show t.val * 512 + k.val = (win0_7.index t (0 : Fin 2) * 8 + 1 * r.val) / 8 * 512 + k.val; omega
    | ⟨1, _⟩ => show q.val = win0_7.index t (1 : Fin 2) * 128 + 1 * q.val; omega

/-- An index of the instance predictions is in point `t`'s block iff each coordinate is in the block's range. -/
theorem mem_blk6 (t : Fin cfg0.N) (i : S16384x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v12_0).slice (win0_6.rect t)).set ↔ _
  rw [View.set_slice_whole, Rect.mem_set_unit]
  exact Iff.rfl

theorem mem_blk7 (t : Fin cfg0.N) (i : S256x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v12_1).slice (win0_7.rect t)).set ↔ _
  rw [View.set_slice_whole, Rect.mem_set_unit]
  exact Iff.rfl

/-- Every row block is some point's. -/
theorem idx_onto6 : ∀ q0 : Fin 32, ∃ t : Fin cfg0.N, win0_6.index t = ![q0.val, 0] :=
  (by decide +kernel : ∀ q0 : Fin 32, ∃ t : Fin grid0.N, win0_6.index t = ![q0.val, 0])

theorem idx_onto7 : ∀ q0 : Fin 32, ∃ t : Fin cfg0.N, win0_7.index t = ![q0.val, 0] :=
  (by decide +kernel : ∀ q0 : Fin 32, ∃ t : Fin grid0.N, win0_7.index t = ![q0.val, 0])

/-- Row `r` of the instance predictions is written by the point `r / 512`. -/
theorem cover6 (i : S16384x128.Idx) : ∃ t : Fin cfg0.N, (cfg0.win 6).flush t = true ∧ i ∈ ((cfg0.win 6).blk t).view.set := by
  have hi0 : (i 0).val < 16384 := (i 0).isLt
  have hi1 : (i 1).val < 128 := (i 1).isLt
  obtain ⟨t, ht⟩ := idx_onto6 ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 128 ≤ (i 1).val ∧ (i 1).val < win0_6.index t (1 : Fin 2) * 128 + 128; omega

/-- Bag `b` is written by the point `b / 8`. -/
theorem cover7 (i : S256x128.Idx) : ∃ t : Fin cfg0.N, (cfg0.win 7).flush t = true ∧ i ∈ ((cfg0.win 7).blk t).view.set := by
  have hi0 : (i 0).val < 256 := (i 0).isLt
  have hi1 : (i 1).val < 128 := (i 1).isLt
  obtain ⟨t, ht⟩ := idx_onto7 ⟨(i 0).val / 8, by omega⟩
  have q0 : win0_7.index t (0 : Fin 2) = (i 0).val / 8 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 128 ≤ (i 1).val ∧ (i 1).val < win0_7.index t (1 : Fin 2) * 128 + 128; omega

/-- THE INSTANCE PREDICTIONS after the run. -/
theorem final6 (c : Dev nD) : (dats m 0 c).arrAt 6 cfg0.N
    = InstG (V m c main_v0) (V m c main_arg1) (V m c main_v1) (V m c main_arg3) (V m c main_v2) :=
  (dats m 0 c).arrAt_eq_of_cover 6 _ (fun t _ => flushed6_eq m c t) cover6

/-- THE BAG PREDICTIONS after the run. -/
theorem final7 (c : Dev nD) : (dats m 0 c).arrAt 7 cfg0.N
    = BagPool (InstG (V m c main_v0) (V m c main_arg1) (V m c main_v1) (V m c main_arg3) (V m c main_v2)) :=
  (dats m 0 c).arrAt_eq_of_cover 7 _ (fun t _ => flushed7_eq m c t) cover7

/-- The line after the region re-lays the instance predictions as bags × instances × classes. -/
theorem tail_v13 (c : Dev nD) :
    Pipeline.afterTail₀ cfgs (dats m) 0 (V0 m) [hostOps1] c main_v13
      = shapeCast S256x64x128 (InstG (V m c main_v0) (V m c main_arg1) (V m c main_v1) (V m c main_arg3) (V m c main_v2))
          Facts₀.shapeCasts_S16384x128_S256x64x128 := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12_0)
      = InstG (V m c main_v0) (V m c main_arg1) (V m c main_v1) (V m c main_arg3) (V m c main_v2) :=
    (Pipeline.withArrays_arr spec0 launch0.win.arr_inj c _ _ 6).trans (final6 m c)
  rw [hw]
  rfl

set_option maxHeartbeats 1000000 in
/-- The host lines before the region: the bags flattened to rows, each bias made a row. -/
theorem V_main_v0 (c : Dev nD) : (V m c main_v0 : S16384x512.Idx → EReal)
    = shapeCast S16384x512 (m ((c : Thread nD τ).loc main_arg0)) Facts₀.shapeCasts_S256x64x512_S16384x512 := by
  show StableHlo.after (List.flatten [hostOps0, hostOps0_1, hostOps0_2, hostOps0_3]) (fun b => m (c, b)) (Proc.devRef .tc main_v0) = _
  rfl

set_option maxHeartbeats 1000000 in
theorem V_main_v1 (c : Dev nD) : (V m c main_v1 : S1x512.Idx → EReal)
    = shapeCast S1x512 (m ((c : Thread nD τ).loc main_arg2)) Facts₀.shapeCasts_S512_S1x512 := by
  show StableHlo.after (List.flatten [hostOps0, hostOps0_1, hostOps0_2, hostOps0_3]) (fun b => m (c, b)) (Proc.devRef .tc main_v1) = _
  rfl

set_option maxHeartbeats 1000000 in
theorem V_main_v2 (c : Dev nD) : (V m c main_v2 : S1x128.Idx → EReal)
    = shapeCast S1x128 (m ((c : Thread nD τ).loc main_arg4)) Facts₀.shapeCasts_S128_S1x128 := by
  show StableHlo.after (List.flatten [hostOps0, hostOps0_1, hostOps0_2, hostOps0_3]) (fun b => m (c, b)) (Proc.devRef .tc main_v2) = _
  rfl

/-- The instance predictions, as a function of the argument arrays. -/
theorem inst_args (c : Dev nD) :
    InstG (V m c main_v0) (V m c main_arg1) (V m c main_v1) (V m c main_arg3) (V m c main_v2)
      = flatInst (m ((c : Thread nD τ).loc main_arg0)) (m ((c : Thread nD τ).loc main_arg1)) (m ((c : Thread nD τ).loc main_arg2))
          (m ((c : Thread nD τ).loc main_arg3)) (m ((c : Thread nD τ).loc main_arg4))
          Facts₀.shapeCasts_S256x64x512_S16384x512 Facts₀.shapeCasts_S512_S1x512 Facts₀.shapeCasts_S128_S1x128 := by
  unfold flatInst
  rw [V_main_v0, V_main_arg1 m c, V_main_v1, V_main_arg3 m c, V_main_v2]

/-- The run, with both results named as functions of the argument arrays — the bag predictions in the per-bag-sum form —
    and the arguments unchanged. -/
theorem run : θ_run defs (onTc (τ := τ) (main (F := Ideal))) ⟨m, fun _ => 0, ρ⟩ fun r => ∀ c : Dev nD,
      r.2.mem ((c : Thread nD τ).loc main_v12_1)
        = BagG (flatInst (m ((c : Thread nD τ).loc main_arg0)) (m ((c : Thread nD τ).loc main_arg1)) (m ((c : Thread nD τ).loc main_arg2))
            (m ((c : Thread nD τ).loc main_arg3)) (m ((c : Thread nD τ).loc main_arg4))
            Facts₀.shapeCasts_S256x64x512_S16384x512 Facts₀.shapeCasts_S512_S1x512 Facts₀.shapeCasts_S128_S1x128)
      ∧ r.2.mem ((c : Thread nD τ).loc main_v13)
        = shapeCast S256x64x128 (flatInst (m ((c : Thread nD τ).loc main_arg0)) (m ((c : Thread nD τ).loc main_arg1)) (m ((c : Thread nD τ).loc main_arg2))
            (m ((c : Thread nD τ).loc main_arg3)) (m ((c : Thread nD τ).loc main_arg4))
            Facts₀.shapeCasts_S256x64x512_S16384x512 Facts₀.shapeCasts_S512_S1x512 Facts₀.shapeCasts_S128_S1x128)
            Facts₀.shapeCasts_S16384x128_S256x64x128
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).1 7).trans ((final7 m c).trans ((bagPool_eq _).trans (congrArg BagG (inst_args m c)))),
      ((h c).2 main_v13 (Pipeline.mem_restRefs_of main_v13 (by decide) (by decide))).trans
        ((tail_v13 m c).trans (congrArg (fun Y => shapeCast S256x64x128 Y Facts₀.shapeCasts_S16384x128_S256x64x128) (inst_args m c))),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.ReferenceIdeal.Arrays

end
-- ==== Proof.lean ====
/-
  A fused multiple-instance model against its reference, over the extended reals.

  256 bags of 64 instances with 512 features each are flattened to 16384 rows. Both programs give every row its
  two-layer prediction — (∑ h, max (∑ d, x d · w1 (d, h) + b1 h) 0 · w2 (h, c)) + b2 c, a function of the row alone — and
  every bag the mean of its 64 rows' predictions. They differ in how the rows are cut into blocks (4096 rows per grid
  point against 512) and in how the mean is taken: the kernel re-lays a block as bags × rows, sums along the rows and
  multiplies by κ = 1/64; the reference multiplies the block from the left by a matrix, computed on the host with
  integer operations, that holds κ at (r, j) where row j belongs to bag r and 0 elsewhere.

  The instance predictions are the same sums on both sides, index by index. For the bag predictions the law that joins
  the two sides is ∑ j, (if j / 64 = r then κ else 0) · f j = (∑ n, f (64 r + n)) · κ, which holds for arbitrary extended
  reals f j because 0 · x = 0 and a factor with 0 ≤ κ < ⊤ distributes over a sum (Proof/PoolSum.lean, Proof/BagMean.lean);
  so the precondition is never opened. What each program's arrays hold after its run is read off its frame run block by
  block (Proof/KernelArrays.lean, Proof/ReferenceArrays.lean; the reference's host-built matrix in Proof/ReferencePool.lean),
  and both are stated as the same two functions of the five argument arrays.
-/
import proofs.«137443_g2000502745572654_pallasbulk_917_20_alg».proof.Defs
import proofs.«137443_g2000502745572654_pallasbulk_917_20_alg».proof.Proof.Gen.Kernel
import proofs.«137443_g2000502745572654_pallasbulk_917_20_alg».proof.Proof.Gen.Kernel.Skeleton
import proofs.«137443_g2000502745572654_pallasbulk_917_20_alg».proof.Proof.Gen.Kernel.Launch
import proofs.«137443_g2000502745572654_pallasbulk_917_20_alg».proof.Proof.Gen.Kernel.Points
import proofs.«137443_g2000502745572654_pallasbulk_917_20_alg».proof.Proof.Gen.Kernel.Frame
import proofs.«137443_g2000502745572654_pallasbulk_917_20_alg».proof.Proof.Gen.KernelIdeal
import proofs.«137443_g2000502745572654_pallasbulk_917_20_alg».proof.Proof.Gen.KernelIdeal.Skeleton
import proofs.«137443_g2000502745572654_pallasbulk_917_20_alg».proof.Proof.Gen.KernelIdeal.Launch
import proofs.«137443_g2000502745572654_pallasbulk_917_20_alg».proof.Proof.Gen.KernelIdeal.Points
import proofs.«137443_g2000502745572654_pallasbulk_917_20_alg».proof.Proof.Gen.KernelIdeal.Frame
import proofs.«137443_g2000502745572654_pallasbulk_917_20_alg».proof.Proof.Gen.ReferenceIdeal
import proofs.«137443_g2000502745572654_pallasbulk_917_20_alg».proof.Proof.Gen.ReferenceIdeal.Skeleton
import proofs.«137443_g2000502745572654_pallasbulk_917_20_alg».proof.Proof.Gen.ReferenceIdeal.Launch
import proofs.«137443_g2000502745572654_pallasbulk_917_20_alg».proof.Proof.Gen.ReferenceIdeal.Points
import proofs.«137443_g2000502745572654_pallasbulk_917_20_alg».proof.Proof.Gen.ReferenceIdeal.Frame
import proofs.«137443_g2000502745572654_pallasbulk_917_20_alg».proof.Proof.Gen.Pre_finite_inputs
import proofs.«137443_g2000502745572654_pallasbulk_917_20_alg».proof.Proof.KernelArrays
import proofs.«137443_g2000502745572654_pallasbulk_917_20_alg».proof.Proof.ReferenceArrays
import Idealize.ShloMosaic.Adequacy
import Idealize.ShloMosaic.Init

noncomputable section

namespace Cert.Proof

open Idealize.ShloMosaic Idealize.ShloMosaic.TcCoe Idealize.SL.Sem Cert.Mil

/-- Each program runs to the end without a fault and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- From memories that agree on the five arguments both programs end with the bag predictions at the per-bag sums times κ
    of the instance predictions, and the instance predictions re-laid as bags × instances × classes. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun r h c => ?_) (Cert.ReferenceIdeal.Arrays.run m' ρ')
  obtain ⟨h0, h1, h2, h3, h4, h5, h6⟩ := h c
  obtain ⟨a0, a1, a2, a3, a4⟩ := hagree c
  refine ⟨h0.trans ?_, h1.trans ?_, h2, h3, h4, h5, h6⟩
  · rw [a0, a1, a2, a3, a4]
  · rw [a0, a1, a2, a3, a4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
